-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32768x256 : Shape := ⟨3, ![4, 32768, 256]⟩
abbrev S1024x256 : Shape := ⟨2, ![1024, 256]⟩
abbrev S1024 : Shape := ⟨1, ![1024]⟩
abbrev S256x1024 : Shape := ⟨2, ![256, 1024]⟩
abbrev S256 : Shape := ⟨1, ![256]⟩
abbrev S_ : Shape := ⟨0, ![]⟩

class Facts : Prop where
  bcast_S_S4x32768x256 : S_.BroadcastsInDim S4x32768x256 (![] : Fin 0 → Fin S4x32768x256.rank)
  reducesTo_S4x32768x256_S_d0_1_2 : S4x32768x256.ReducesTo [0, 1, 2] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S4x32768x256 .f32) (main_arg1 : FVec F S1024x256 .f32) (main_arg2 : FVec F S1024 .f32) (main_arg3 : FVec F S256x1024 .f32) (main_arg4 : FVec F S256 .f32) (main_arg5 : IVec S1024x256 32) : IVec S_ 1 :=
  let main_v0 : FVec F S4x32768x256 .f32 := Host.absf main_arg0
  let main_cst : FVec F S_ .f32 := constant S_ .f32 0x7F800000#32
  let main_v1 : FVec F S4x32768x256 .f32 := broadcastInDim S4x32768x256 ![] bcast_S_S4x32768x256 main_cst
  let main_v2 : IVec S4x32768x256 1 := cmpf .olt main_v0 main_v1
  let main_c : IVec S_ 1 := constantI S_ 1 1#1
  let main_v3 : IVec S_ 1 := (fun x v => Host.reduce IntOp.andi x v reducesTo_S4x32768x256_S_d0_1_2 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S256x1024 .f32 := Host.absf main_arg3
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg4 main_v13 main_v16
-- ==== Kernel.lean ====
abbrev S4x32768x256 : Shape := ⟨3, ![4, 32768, 256]⟩
abbrev S1024x256 : Shape := ⟨2, ![1024, 256]⟩
abbrev S1024 : Shape := ⟨1, ![1024]⟩
abbrev S256x1024 : Shape := ⟨2, ![256, 1024]⟩
abbrev S256 : Shape := ⟨1, ![256]⟩
abbrev S1x1024 : Shape := ⟨2, ![1, 1024]⟩
abbrev S1x256 : Shape := ⟨2, ![1, 256]⟩
abbrev S131072x256 : Shape := ⟨2, ![131072, 256]⟩
abbrev S4096x256 : Shape := ⟨2, ![4096, 256]⟩
abbrev S256x256 : Shape := ⟨2, ![256, 256]⟩

abbrev nBuf : Space → Nat
  | .hbm => 18
  | .vmem => 8
  | .smem => 0
  | _ => 0

abbrev bufTy : (tb : Table) → Fin (tcTables nBuf tb) → BufTy
  | .hbm, ⟨0, _⟩ => ⟨S4x32768x256, .f32⟩
  | .hbm, ⟨1, _⟩ => ⟨S1024x256, .f32⟩
  | .hbm, ⟨2, _⟩ => ⟨S1024, .f32⟩
  | .hbm, ⟨3, _⟩ => ⟨S256x1024, .f32⟩
  | .hbm, ⟨4, _⟩ => ⟨S256, .f32⟩
  | .hbm, ⟨5, _⟩ => ⟨S1024x256, .i32⟩
  | .hbm, ⟨6, _⟩ => ⟨S1024x256, .f32⟩
  | .hbm, ⟨7, _⟩ => ⟨S1024x256, .f32⟩
  | .hbm, ⟨8, _⟩ => ⟨S256x1024, .f32⟩
  | .hbm, ⟨9, _⟩ => ⟨S256x1024, .bf16⟩
  | .hbm, ⟨10, _⟩ => ⟨S1024x256, .f32⟩
  | .hbm, ⟨11, _⟩ => ⟨S1024x256, .f32⟩
  | .hbm, ⟨12, _⟩ => ⟨S1024x256, .bf16⟩
  | .hbm, ⟨13, _⟩ => ⟨S1x1024, .f32⟩
  | .hbm, ⟨14, _⟩ => ⟨S1x256, .f32⟩
  | .hbm, ⟨15, _⟩ => ⟨S131072x256, .f32⟩
  | .hbm, ⟨16, _⟩ => ⟨S131072x256, .f32⟩
  | .hbm, ⟨17, _⟩ => ⟨S4x32768x256, .f32⟩
  | .local _ .vmem, ⟨0, _⟩ => ⟨S4096x256, .f32⟩
  | .local _ .vmem, ⟨1, _⟩ => ⟨S4096x256, .f32⟩
  | .local _ .vmem, ⟨2, _⟩ => ⟨S256x1024, .bf16⟩
  | .local _ .vmem, ⟨3, _⟩ => ⟨S1x1024, .f32⟩
  | .local _ .vmem, ⟨4, _⟩ => ⟨S1024x256, .bf16⟩
  | .local _ .vmem, ⟨5, _⟩ => ⟨S1x256, .f32⟩
  | .local _ .vmem, ⟨6, _⟩ => ⟨S4096x256, .f32⟩
  | .local _ .vmem, ⟨7, _⟩ => ⟨S4096x256, .f32⟩
  | _, _ => ⟨S4x32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S1024x256_S256x1024_1_0 : S1024x256.Transposes [1, 0] S256x1024
  bitsLt_bf16_f32 : FTy.bits .bf16 < FTy.bits .f32
  transposes_S256x1024_S1024x256_1_0 : S256x1024.Transposes [1, 0] S1024x256
  shapeCasts_S1024_S1x1024 : S1024.ShapeCasts S1x1024
  shapeCasts_S256_S1x256 : S256.ShapeCasts S1x256
  shapeCasts_S4x32768x256_S131072x256 : S4x32768x256.ShapeCasts S131072x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x1024_S256x256_0_0 : ∀ a, (![0, 0] : Fin 2 → Nat) a + S256x256.size a ≤ S256x1024.size a
  h_S256x256 : 0 < S256x256.numel
  shapeCasts_S256x256_S256x256 : S256x256.ShapeCasts S256x256
  inb_S1x1024_S1x256_0_0 : ∀ a, (![0, 0] : Fin 2 → Nat) a + S1x256.size a ≤ S1x1024.size a
  h_S1x256 : 0 < S1x256.numel
  shapeCasts_S1x256_S1x256 : S1x256.ShapeCasts S1x256
  broadcasts_S1x256_S4096x256 : S1x256.Broadcasts S4096x256
  inb_S1024x256_S256x256_0_0 : ∀ a, (![0, 0] : Fin 2 → Nat) a + S256x256.size a ≤ S1024x256.size a
  inb_S256x1024_S256x256_0_256 : ∀ a, (![0, 256] : Fin 2 → Nat) a + S256x256.size a ≤ S256x1024.size a
  inb_S1x1024_S1x256_0_256 : ∀ a, (![0, 256] : Fin 2 → Nat) a + S1x256.size a ≤ S1x1024.size a
  inb_S1024x256_S256x256_256_0 : ∀ a, (![256, 0] : Fin 2 → Nat) a + S256x256.size a ≤ S1024x256.size a
  inb_S256x1024_S256x256_0_512 : ∀ a, (![0, 512] : Fin 2 → Nat) a + S256x256.size a ≤ S256x1024.size a
  inb_S1x1024_S1x256_0_512 : ∀ a, (![0, 512] : Fin 2 → Nat) a + S1x256.size a ≤ S1x1024.size a
  inb_S1024x256_S256x256_512_0 : ∀ a, (![512, 0] : Fin 2 → Nat) a + S256x256.size a ≤ S1024x256.size a
  inb_S256x1024_S256x256_0_768 : ∀ a, (![0, 768] : Fin 2 → Nat) a + S256x256.size a ≤ S256x1024.size a
  inb_S1x1024_S1x256_0_768 : ∀ a, (![0, 768] : Fin 2 → Nat) a + S1x256.size a ≤ S1x1024.size a
  inb_S1024x256_S256x256_768_0 : ∀ a, (![768, 0] : Fin 2 → Nat) a + S256x256.size a ≤ S1024x256.size a
  inb_S1x256_S1x256_0_0 : ∀ a, (![0, 0] : Fin 2 → Nat) a + S1x256.size a ≤ S1x256.size a
  shapeCasts_S131072x256_S4x32768x256 : S131072x256.ShapeCasts S4x32768x256
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .bf16 = 32 ∨ (Rect.block (s := S256x1024) S256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .bf16 = 32 ∨ (Rect.block (s := S1024x256) S1024x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S131072x256.size a
  hwx0_5 : ∀ i : grid0.Coords, EltTy.bits .f32 = 32 ∨ (Rect.block (s := S131072x256) S4096x256.size (cc0_transform_5 i) (hinb0_5 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_v9) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S4096x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x32768x256 : Shape := ⟨3, ![4, 32768, 256]⟩
abbrev S1024x256 : Shape := ⟨2, ![1024, 256]⟩
abbrev S1024 : Shape := ⟨1, ![1024]⟩
abbrev S256x1024 : Shape := ⟨2, ![256, 1024]⟩
abbrev S256 : Shape := ⟨1, ![256]⟩
abbrev S4x32768x1024 : Shape := ⟨3, ![4, 32768, 1024]⟩
abbrev S1x1x1024 : Shape := ⟨3, ![1, 1, 1024]⟩
abbrev S_ : Shape := ⟨0, ![]⟩
abbrev S1x1x256 : Shape := ⟨3, ![1, 1, 256]⟩

abbrev nBuf : Space → Nat
  | .hbm => 21
  | .vmem => 0
  | .smem => 0
  | _ => 0

abbrev bufTy : (tb : Table) → Fin (tcTables nBuf tb) → BufTy
  | .hbm, ⟨0, _⟩ => ⟨S4x32768x256, .f32⟩
  | .hbm, ⟨1, _⟩ => ⟨S1024x256, .f32⟩
  | .hbm, ⟨2, _⟩ => ⟨S1024, .f32⟩
  | .hbm, ⟨3, _⟩ => ⟨S256x1024, .f32⟩
  | .hbm, ⟨4, _⟩ => ⟨S256, .f32⟩
  | .hbm, ⟨5, _⟩ => ⟨S1024x256, .i32⟩
  | .hbm, ⟨6, _⟩ => ⟨S1024x256, .f32⟩
  | .hbm, ⟨7, _⟩ => ⟨S1024x256, .f32⟩
  | .hbm, ⟨8, _⟩ => ⟨S4x32768x1024, .f32⟩
  | .hbm, ⟨9, _⟩ => ⟨S1x1x1024, .f32⟩
  | .hbm, ⟨10, _⟩ => ⟨S4x32768x1024, .f32⟩
  | .hbm, ⟨11, _⟩ => ⟨S4x32768x1024, .f32⟩
  | .hbm, ⟨12, _⟩ => ⟨S_, .f32⟩
  | .hbm, ⟨13, _⟩ => ⟨S4x32768x1024, .f32⟩
  | .hbm, ⟨14, _⟩ => ⟨S4x32768x1024, .f32⟩
  | .hbm, ⟨15, _⟩ => ⟨S256x1024, .f32⟩
  | .hbm, ⟨16, _⟩ => ⟨S256x1024, .f32⟩
  | .hbm, ⟨17, _⟩ => ⟨S4x32768x256, .f32⟩
  | .hbm, ⟨18, _⟩ => ⟨S1x1x256, .f32⟩
  | .hbm, ⟨19, _⟩ => ⟨S4x32768x256, .f32⟩
  | .hbm, ⟨20, _⟩ => ⟨S4x32768x256, .f32⟩
  | _, _ => ⟨S4x32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x32768x1024_0_1_2 : S1x1x1024.BroadcastsInDim S4x32768x1024 (![0, 1, 2] : Fin 3 → Fin S4x32768x1024.rank)
  bcast_S_S4x32768x1024 : S_.BroadcastsInDim S4x32768x1024 (![] : Fin 0 → Fin S4x32768x1024.rank)
  transposes_S1024x256_S256x1024_1_0 : S1024x256.Transposes [1, 0] S256x1024
  bcast_S256_S1x1x256_2 : S256.BroadcastsInDim S1x1x256 (![2] : Fin 1 → Fin S1x1x256.rank)
  bcast_S1x1x256_S4x32768x256_0_1_2 : S1x1x256.BroadcastsInDim S4x32768x256 (![0, 1, 2] : Fin 3 → Fin S4x32768x256.rank)
  dot_S4x32768x256_S1024x256_S4x32768x1024_2_1_01_0_n_n_wf : DotDims.WF S4x32768x256 S1024x256 S4x32768x1024 [2] [1] [0, 1] [0] [] []
  dot_S4x32768x1024_S256x1024_S4x32768x256_2_1_01_0_n_n_wf : DotDims.WF S4x32768x1024 S256x1024 S4x32768x256 [2] [1] [0, 1] [0] [] []

variable [Facts₀]

def dot_S4x32768x256_S1024x256_S4x32768x1024_2_1_01_0_n_n : DotDims S4x32768x256 S1024x256 S4x32768x1024 where
  lhsContracting := [2]
  rhsContracting := [1]
  lhsNonContracting := [0, 1]
  rhsNonContracting := [0]
  lhsBatch := []
  rhsBatch := []
  wf := dot_S4x32768x256_S1024x256_S4x32768x1024_2_1_01_0_n_n_wf
def dot_S4x32768x1024_S256x1024_S4x32768x256_2_1_01_0_n_n : DotDims S4x32768x1024 S256x1024 S4x32768x256 where
  lhsContracting := [2]
  rhsContracting := [1]
  lhsNonContracting := [0, 1]
  rhsNonContracting := [0]
  lhsBatch := []
  rhsBatch := []
  wf := dot_S4x32768x1024_S256x1024_S4x32768x256_2_1_01_0_n_n_wf

class Facts : Prop extends Facts₀ where

variable [Facts]
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.LibLayoutExtra.lean ====
/-
  Layout reads at an index written by coordinates, for shapes of any extents:
  a unit-stride slice of a rank-3 array along its FIRST axis; a load of a rank-2 block through a unit-stride
  rectangle at an offset; the casts [m, c] → [a, b, d, c] (m = a·b·d) and [a, 1, d, c] → [a, d, c].
-/
import Idealize.ShloMosaic.Lib.Pipeline.Value
import Idealize.ShloMosaic.Lib.ValueIdx

namespace Cert.LibLayoutExtra

open Idealize.ShloMosaic Idealize.ShloMosaic.ValueIdx

variable {α : Type}

/-- A rank-3 array cut along its first axis from `o` reads, at (j, b, c), the source at (k, b, c) with k = o + j. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (c : Fin n2) (k : Fin n0) (hk : k.val = o + j.val) :
    extractStridedSlice ⟨3, ![m, n1, n2]⟩ ![o, 0, 0] X h (ix3 j b c) = X (ix3 k b c) :=
  extractStridedSlice_apply _ _ _ _ _ (fun ax => by
    match ax with
    | ⟨0, _⟩ => exact hk
    | ⟨1, _⟩ => exact (Nat.zero_add _).symm
    | ⟨2, _⟩ => exact (Nat.zero_add _).symm)

/-- A load of an [r, c] block of an [R, C] array through the unit-stride rectangle at offsets (o0, o1) reads, at (p, q),
    the array at (o0 + p, o1 + q). -/
theorem ld_unit2_apply {Val : EltTy → Type} {e : EltTy} {R C r c : Nat} (X : (⟨2, ![R, C]⟩ : Shape).Idx → Val e) (o0 o1 : Nat)
    (inb : ∀ a, (![o0, o1] : Fin 2 → Nat) a + (⟨2, ![r, c]⟩ : Shape).size a ≤ (⟨2, ![R, C]⟩ : Shape).size a)
    (p : Fin r) (q : Fin c) (P : Fin R) (Q : Fin C) (hP : P.val = o0 + p.val) (hQ : Q.val = o1 + q.val) :
    View.ld (Val := Val) X (Rect.unit (s := ⟨2, ![R, C]⟩) ![o0, o1] (⟨2, ![r, c]⟩ : Shape).size inb) (ix2 p q) = X (ix2 P Q) := by
  show X _ = X _
  refine congrArg X (funext fun a => Fin.ext ?_)
  match a with
  | ⟨0, _⟩ => show o0 + 1 * p.val = P.val; omega
  | ⟨1, _⟩ => show o1 + 1 * q.val = Q.val; omega

/-- An [m, c] matrix (m = a·b·d) cast to [a, b, d, c] reads, at (p, q, e, ·), the matrix at row (p·b + q)·d + e. -/
theorem shapeCast_mc_abdc_apply {a b d c m : ℕ} (x : (⟨2, ![m, c]⟩ : Shape).Idx → α)
    (h : (⟨2, ![m, c]⟩ : Shape).ShapeCasts ⟨4, ![a, b, d, c]⟩) (p : Fin a) (q : Fin b) (e : Fin d) (f : Fin c) (r : Fin m)
    (hr : r.val = (p.val * b + q.val) * d + e.val) :
    shapeCast ⟨4, ![a, b, d, c]⟩ x h (ix4 p q e f) = x (ix2 r f) :=
  shapeCast_apply x h _ _ (by
    rw [Shape.rowMajor_val_two, Shape.rowMajor_val_four]
    show r.val * c + f.val = ((p.val * b + q.val) * d + e.val) * c + f.val
    rw [hr])

/-- An [a, 1, d, c] array cast to [a, d, c] reads, at (p, e, f), the array at (p, 0, e, f). -/
theorem shapeCast_a1dc_adc_apply {a d c : ℕ} (x : (⟨4, ![a, 1, d, c]⟩ : Shape).Idx → α)
    (h : (⟨4, ![a, 1, d, c]⟩ : Shape).ShapeCasts ⟨3, ![a, d, c]⟩) (p : Fin a) (e : Fin d) (f : Fin c) :
    shapeCast ⟨3, ![a, d, c]⟩ x h (ix3 p e f) = x (ix4 p (0 : Fin 1) e f) :=
  shapeCast_apply x h _ _ (by
    rw [Shape.rowMajor_val_four, Shape.rowMajor_val_three]
    show ((p.val * 1 + 0) * d + e.val) * c + f.val = (p.val * d + e.val) * c + f.val
    rw [Nat.mul_one, Nat.add_zero])

end Cert.LibLayoutExtra
-- ==== Proof.Mlp.lean ====
/-
  A two-layer perceptron read one output entry at a time, on the extended reals.

  One row x of 256 inputs meets a first layer of 1024 hidden units (weights W1, biases B1), a rectifier, and a second
  layer of 256 outputs (weights W2, biases B2):

      y[q] = (sum over h < 1024 of max(sum over j < 256 of x[j] * W1[j,h] + B1[h], 0) * W2[h,q]) + B2[q].

  The same entry can be accumulated in four consecutive chunks of 256 hidden units, each chunk's partial sum added
  to a running total that starts at zero. The two arrangements differ only in how one finite sum is grouped, so they
  agree in any additive commutative monoid: on the extended reals nothing has to be finite.
-/
import Idealize.ShloMosaic.PureOps.Ideal.Laws
import Idealize.ShloMosaic.Lib.ValueIdx

noncomputable section

namespace Cert.Mlp

open Idealize.ShloMosaic Idealize.ShloMosaic.ValueIdx

/-- Hidden unit number 256 * c + k: position k of chunk c. -/
def hid (c : Fin 4) (k : Fin 256) : Fin 1024 := ⟨256 * c.val + k.val, by omega⟩

/-- The hidden units are the pairs (chunk, position in the chunk). -/
def hidEquiv : Fin 4 × Fin 256 ≃ Fin 1024 where
  toFun x := hid x.1 x.2
  invFun h := (⟨h.val / 256, by omega⟩, ⟨h.val % 256, by omega⟩)
  left_inv x := by
    obtain ⟨c, k⟩ := x
    refine Prod.ext (Fin.ext ?_) (Fin.ext ?_)
    · show (256 * c.val + k.val) / 256 = c.val
      omega
    · show (256 * c.val + k.val) % 256 = k.val
      omega
  right_inv h := Fin.ext (by
    show 256 * (h.val / 256) + h.val % 256 = h.val
    omega)

/-- A sum over the 1024 hidden units is the sum of the four chunks' sums, taken in order. -/
theorem sum_chunks {M : Type*} [AddCommMonoid M] (f : Fin 1024 → M) :
    ∑ h, f h = (((∑ k : Fin 256, f (hid 0 k)) + ∑ k : Fin 256, f (hid 1 k)) + ∑ k : Fin 256, f (hid 2 k))
      + ∑ k : Fin 256, f (hid 3 k) := by
  rw [← Fintype.sum_equiv hidEquiv (fun x => f (hid x.1 x.2)) f (fun _ => rfl), Fintype.sum_prod_type,
    Fin.sum_univ_four]

/-- One hidden unit's activation from one input row: max(sum over j of x[j] * W1[j,h] + B1[h], 0), the zero being the
    single-precision zero pattern (which denotes 0). -/
def act (xr : Fin 256 → EReal) (W1 : Fin 256 → Fin 1024 → EReal) (B1 : Fin 1024 → EReal) (h : Fin 1024) : EReal :=
  max ((∑ j : Fin 256, xr j * W1 j h) + B1 h) (Ideal.ofBits .f32 0x00000000#32)

/-- Output entry q of one row, the hidden layer summed at once. -/
def rowWhole (xr : Fin 256 → EReal) (W1 : Fin 256 → Fin 1024 → EReal) (B1 : Fin 1024 → EReal)
    (W2 : Fin 1024 → Fin 256 → EReal) (B2 : Fin 256 → EReal) (q : Fin 256) : EReal :=
  (∑ h : Fin 1024, act xr W1 B1 h * W2 h q) + B2 q

/-- The same entry with the hidden layer taken chunk by chunk into a running total that starts at the zero pattern. -/
def rowChunked (xr : Fin 256 → EReal) (W1 : Fin 256 → Fin 1024 → EReal) (B1 : Fin 1024 → EReal)
    (W2 : Fin 1024 → Fin 256 → EReal) (B2 : Fin 256 → EReal) (q : Fin 256) : EReal :=
  ((((Ideal.ofBits .f32 0x00000000#32 + ∑ k : Fin 256, act xr W1 B1 (hid 0 k) * W2 (hid 0 k) q)
      + ∑ k : Fin 256, act xr W1 B1 (hid 1 k) * W2 (hid 1 k) q)
      + ∑ k : Fin 256, act xr W1 B1 (hid 2 k) * W2 (hid 2 k) q)
      + ∑ k : Fin 256, act xr W1 B1 (hid 3 k) * W2 (hid 3 k) q) + B2 q

/-- Chunk by chunk or at once, the entry is the same extended real: the running total starts at 0 and the chunks
    partition the hidden units. -/
theorem rowChunked_eq_rowWhole (xr : Fin 256 → EReal) (W1 : Fin 256 → Fin 1024 → EReal) (B1 : Fin 1024 → EReal)
    (W2 : Fin 1024 → Fin 256 → EReal) (B2 : Fin 256 → EReal) (q : Fin 256) :
    rowChunked xr W1 B1 W2 B2 q = rowWhole xr W1 B1 W2 B2 q := by
  unfold rowChunked rowWhole
  rw [sum_chunks fun h => act xr W1 B1 h * W2 h q, Ideal.ofBits_zero_f32, zero_add]

/-! ## The whole result

The arguments as the programs receive them: x : [4, 32768, 256]; first-layer weights w1 : [1024, 256] (hidden unit by
input) and biases b1 : [1024]; second-layer weights w2 : [256, 1024] (output by hidden unit) and biases b2 : [256]; an
integer connectivity mask mk : [1024, 256], read signed, that multiplies w1 entry by entry and the transpose of w2
entry by entry. -/

/-- Masked first-layer weight from input j to hidden unit h. -/
def w1m (w1 : (⟨2, ![1024, 256]⟩ : Shape).Idx → EReal) (mk : (⟨2, ![1024, 256]⟩ : Shape).Idx → BitVec 32)
    (j : Fin 256) (h : Fin 1024) : EReal :=
  w1 (ix2 h j) * FloatOps.sitofp (F := Ideal) .f32 (mk (ix2 h j))

/-- Masked second-layer weight from hidden unit h to output d. -/
def w2m (w2 : (⟨2, ![256, 1024]⟩ : Shape).Idx → EReal) (mk : (⟨2, ![1024, 256]⟩ : Shape).Idx → BitVec 32)
    (h : Fin 1024) (d : Fin 256) : EReal :=
  w2 (ix2 d h) * FloatOps.sitofp (F := Ideal) .f32 (mk (ix2 h d))

/-- The result at batch b, position s, output d. -/
def outAt (x : (⟨3, ![4, 32768, 256]⟩ : Shape).Idx → EReal) (w1 : (⟨2, ![1024, 256]⟩ : Shape).Idx → EReal)
    (b1 : (⟨1, ![1024]⟩ : Shape).Idx → EReal) (w2 : (⟨2, ![256, 1024]⟩ : Shape).Idx → EReal)
    (b2 : (⟨1, ![256]⟩ : Shape).Idx → EReal) (mk : (⟨2, ![1024, 256]⟩ : Shape).Idx → BitVec 32)
    (b : Fin 4) (s : Fin 32768) (d : Fin 256) : EReal :=
  rowWhole (fun j => x (ix3 b s j)) (w1m w1 mk) (fun h => b1 (ix1 h)) (w2m w2 mk) (fun d => b2 (ix1 d)) d

/-- The result array: entry (b, s, d) is `outAt` there. -/
def out (x : (⟨3, ![4, 32768, 256]⟩ : Shape).Idx → EReal) (w1 : (⟨2, ![1024, 256]⟩ : Shape).Idx → EReal)
    (b1 : (⟨1, ![1024]⟩ : Shape).Idx → EReal) (w2 : (⟨2, ![256, 1024]⟩ : Shape).Idx → EReal)
    (b2 : (⟨1, ![256]⟩ : Shape).Idx → EReal) (mk : (⟨2, ![1024, 256]⟩ : Shape).Idx → BitVec 32) :
    (⟨3, ![4, 32768, 256]⟩ : Shape).Idx → EReal :=
  fun i => outAt x w1 b1 w2 b2 mk (i 0) (i 1) (i 2)

theorem out_apply (x : (⟨3, ![4, 32768, 256]⟩ : Shape).Idx → EReal) (w1 : (⟨2, ![1024, 256]⟩ : Shape).Idx → EReal)
    (b1 : (⟨1, ![1024]⟩ : Shape).Idx → EReal) (w2 : (⟨2, ![256, 1024]⟩ : Shape).Idx → EReal)
    (b2 : (⟨1, ![256]⟩ : Shape).Idx → EReal) (mk : (⟨2, ![1024, 256]⟩ : Shape).Idx → BitVec 32)
    (b : Fin 4) (s : Fin 32768) (d : Fin 256) :
    out x w1 b1 w2 b2 mk (ix3 b s d) = outAt x w1 b1 w2 b2 mk b s d := rfl

end Cert.Mlp

end
-- ==== Proof.Tile.lean ====
/-
  One tile of rows through the perceptron, as the tiled body computes it, read at one entry.

  The body holds a tile x of 4096 rows and the prepared arrays whole: first-layer weights W1 : [256, 1024] (input by
  hidden unit), first-layer biases B1 : [1, 1024], second-layer weights W2 : [1024, 256] (hidden unit by output) and
  output biases B2 : [1, 256]. It takes the hidden layer in four chunks of 256 units. For chunk c it cuts columns
  256c .. 256c + 255 out of W1 and B1 and rows 256c .. 256c + 255 out of W2, forms max(x * W1c + B1c, 0) * W2c with two
  matrix products into zero accumulators, and adds the result to a running total that starts at zero; the output
  bias, laid along every row, comes last. Entry (p, q) of the tile is then `Mlp.rowChunked` of row p of x and the
  prepared arrays, at q.
-/
import Idealize.ShloMosaic.PureOps.Ideal.Laws
import Idealize.ShloMosaic.Lib.Pipeline.Value
import Idealize.ShloMosaic.Lib.ValueIdx
import Idealize.ShloMosaic.Lib.ValueLayout
import proofs.«137107_j11295763988598_2_alg».proof.Proof.LibPlainContract
import proofs.«137107_j11295763988598_2_alg».proof.Proof.LibLayoutExtra
import proofs.«137107_j11295763988598_2_alg».proof.Proof.Mlp

noncomputable section

namespace Cert.Tile

open Idealize.ShloMosaic Idealize.ShloMosaic.ValueIdx Cert.Mlp

/-- A tile of rows. -/
abbrev T : Shape := ⟨2, ![4096, 256]⟩
/-- A 256 by 256 chunk of a weight array. -/
abbrev Q : Shape := ⟨2, ![256, 256]⟩
/-- A chunk of the first-layer bias row; also the output bias row. -/
abbrev R : Shape := ⟨2, ![1, 256]⟩
/-- The prepared first-layer weights, biases and second-layer weights. -/
abbrev SW1 : Shape := ⟨2, ![256, 1024]⟩
abbrev SB1 : Shape := ⟨2, ![1, 1024]⟩
abbrev SW2 : Shape := ⟨2, ![1024, 256]⟩

theorem hz : (![0, 0] : Fin 2 → Nat) = fun _ => 0 := funext fun a => by fin_cases a <;> rfl

/-- One chunk's contribution on a tile: max(xb * w1c + b1c, 0) * w2c, both products into zero accumulators, the bias
    row laid along every row of the tile. -/
def chunk (hq : Q.ShapeCasts Q) (hr : R.ShapeCasts R) (hb : R.Broadcasts T) (hlt : FTy.bits .bf16 < FTy.bits .f32)
    (xb : FVec Ideal T .bf16) (w1c : FVec Ideal Q .bf16) (b1c : FVec Ideal R .f32) (w2c : FVec Ideal Q .bf16) :
    FVec Ideal T .f32 :=
  matmul (DotDims.plain 4096 256 256) none
    (truncf .bf16 (maximumf (addf (matmul (DotDims.plain 4096 256 256) none xb (shapeCast Q w1c hq) (constant (F := Ideal) T .f32 0x00000000#32))
        (broadcastTo T (shapeCast R b1c hr) hb)) (broadcast T (Scalar.ofBits (F := Ideal) .f32 0x00000000#32))) hlt)
    (shapeCast Q w2c hq) (constant (F := Ideal) T .f32 0x00000000#32)

/-- Entry (p, q) of a chunk's contribution: the sum over the chunk's 256 units k of
    max(sum over j of xb[p,j] * w1c[j,k] + b1c[0,k], 0) * w2c[k,q]. -/
theorem chunk_apply (hq : Q.ShapeCasts Q) (hr : R.ShapeCasts R) (hb : R.Broadcasts T) (hlt : FTy.bits .bf16 < FTy.bits .f32)
    (xb : FVec Ideal T .bf16) (w1c : FVec Ideal Q .bf16) (b1c : FVec Ideal R .f32) (w2c : FVec Ideal Q .bf16)
    (p : Fin 4096) (q : Fin 256) :
    chunk hq hr hb hlt xb w1c b1c w2c (ix2 p q)
      = ∑ k : Fin 256, max ((∑ j : Fin 256, xb (ix2 p j) * w1c (ix2 j k)) + b1c (ix2 (0 : Fin 1) k))
          (Ideal.ofBits .f32 0x00000000#32) * w2c (ix2 k q) := by
  unfold chunk
  simp only [shapeCast_self]
  refine (LibPlainContract.matmul_plain_apply 4096 256 256 none _ _ p q).trans (Finset.sum_congr rfl fun k _ => ?_)
  refine congrArg (· * w2c (ix2 k q)) ?_
  show max (FloatOps.matmul (DotDims.plain 4096 256 256) none xb w1c (constant (F := Ideal) T .f32 0x00000000#32) (ix2 p k)
      + broadcastTo T b1c hb (ix2 p k)) (Ideal.ofBits .f32 0x00000000#32) = _
  rw [LibPlainContract.matmul_plain_apply, broadcastTo_1b_ab_apply]

/-- The same when the chunk's three pieces are cut out of the whole prepared arrays at offset o = 256 * c: unit k of
    the chunk is hidden unit `hid c k`. -/
theorem chunk_ld_apply (c : Fin 4) (o : Nat) (ho : o = 256 * c.val)
    (hq : Q.ShapeCasts Q) (hr : R.ShapeCasts R) (hb : R.Broadcasts T) (hlt : FTy.bits .bf16 < FTy.bits .f32)
    (i1 : ∀ a, (![0, o] : Fin 2 → Nat) a + Q.size a ≤ SW1.size a)
    (i2 : ∀ a, (![0, o] : Fin 2 → Nat) a + R.size a ≤ SB1.size a)
    (i3 : ∀ a, (![o, 0] : Fin 2 → Nat) a + Q.size a ≤ SW2.size a)
    (xb : FVec Ideal T .bf16) (x1 : SW1.Idx → Elt Ideal .bf16) (x2 : SB1.Idx → Elt Ideal .f32) (x3 : SW2.Idx → Elt Ideal .bf16)
    (p : Fin 4096) (q : Fin 256) :
    chunk hq hr hb hlt xb (View.ld (Val := Elt Ideal) x1 (Rect.unit (s := SW1) ![0, o] Q.size i1))
        (View.ld (Val := Elt Ideal) x2 (Rect.unit (s := SB1) ![0, o] R.size i2))
        (View.ld (Val := Elt Ideal) x3 (Rect.unit (s := SW2) ![o, 0] Q.size i3)) (ix2 p q)
      = ∑ k : Fin 256, max ((∑ j : Fin 256, xb (ix2 p j) * x1 (ix2 j (hid c k))) + x2 (ix2 (0 : Fin 1) (hid c k)))
          (Ideal.ofBits .f32 0x00000000#32) * x3 (ix2 (hid c k) q) := by
  rw [chunk_apply]
  refine Finset.sum_congr rfl fun k _ => ?_
  have hk : (hid c k).val = o + k.val := by show 256 * c.val + k.val = o + k.val; omega
  rw [LibLayoutExtra.ld_unit2_apply x2 0 o i2 0 k 0 (hid c k) (by omega) hk,
    LibLayoutExtra.ld_unit2_apply x3 o 0 i3 k q (hid c k) q hk (by omega)]
  refine congrArg (fun s => max (s + x2 (ix2 (0 : Fin 1) (hid c k))) (Ideal.ofBits .f32 0x00000000#32) * x3 (ix2 (hid c k) q))
    (Finset.sum_congr rfl fun j _ => ?_)
  rw [LibLayoutExtra.ld_unit2_apply x1 0 o i1 j k j (hid c k) (by omega) hk]

/-- The tile's result from the fourteen loaded pieces: the running total from zero over the four chunks, then the
    output bias row laid along every row. -/
def total (ht : T.ShapeCasts T) (hq : Q.ShapeCasts Q) (hr : R.ShapeCasts R) (hb : R.Broadcasts T)
    (hlt : FTy.bits .bf16 < FTy.bits .f32) (v0 : FVec Ideal T .f32)
    (a0 : FVec Ideal Q .bf16) (c0 : FVec Ideal R .f32) (d0 : FVec Ideal Q .bf16)
    (a1 : FVec Ideal Q .bf16) (c1 : FVec Ideal R .f32) (d1 : FVec Ideal Q .bf16)
    (a2 : FVec Ideal Q .bf16) (c2 : FVec Ideal R .f32) (d2 : FVec Ideal Q .bf16)
    (a3 : FVec Ideal Q .bf16) (c3 : FVec Ideal R .f32) (d3 : FVec Ideal Q .bf16)
    (e : FVec Ideal R .f32) : FVec Ideal T .f32 :=
  addf (addf (addf (addf (addf (broadcast T (Scalar.ofBits (F := Ideal) .f32 0x00000000#32))
      (chunk hq hr hb hlt (truncf .bf16 (shapeCast T v0 ht) hlt) a0 c0 d0))
      (chunk hq hr hb hlt (truncf .bf16 (shapeCast T v0 ht) hlt) a1 c1 d1))
      (chunk hq hr hb hlt (truncf .bf16 (shapeCast T v0 ht) hlt) a2 c2 d2))
      (chunk hq hr hb hlt (truncf .bf16 (shapeCast T v0 ht) hlt) a3 c3 d3))
    (broadcastTo T (shapeCast R e hr) hb)

/-- Entry (p, q) of the tile's result, the pieces cut out of the staged arrays: `Mlp.rowChunked` of row p of the
    tile and the prepared arrays. (A change of float format is the identity on the extended reals, so the narrowed
    row of x is the row.) -/
theorem tile_apply (ht : T.ShapeCasts T) (hq : Q.ShapeCasts Q) (hr : R.ShapeCasts R) (hb : R.Broadcasts T)
    (hlt : FTy.bits .bf16 < FTy.bits .f32)
    (i0 : ∀ a, (![0, 0] : Fin 2 → Nat) a + T.size a ≤ T.size a)
    (i10 : ∀ a, (![0, 0] : Fin 2 → Nat) a + Q.size a ≤ SW1.size a)
    (i20 : ∀ a, (![0, 0] : Fin 2 → Nat) a + R.size a ≤ SB1.size a)
    (i30 : ∀ a, (![0, 0] : Fin 2 → Nat) a + Q.size a ≤ SW2.size a)
    (i11 : ∀ a, (![0, 256] : Fin 2 → Nat) a + Q.size a ≤ SW1.size a)
    (i21 : ∀ a, (![0, 256] : Fin 2 → Nat) a + R.size a ≤ SB1.size a)
    (i31 : ∀ a, (![256, 0] : Fin 2 → Nat) a + Q.size a ≤ SW2.size a)
    (i12 : ∀ a, (![0, 512] : Fin 2 → Nat) a + Q.size a ≤ SW1.size a)
    (i22 : ∀ a, (![0, 512] : Fin 2 → Nat) a + R.size a ≤ SB1.size a)
    (i32 : ∀ a, (![512, 0] : Fin 2 → Nat) a + Q.size a ≤ SW2.size a)
    (i13 : ∀ a, (![0, 768] : Fin 2 → Nat) a + Q.size a ≤ SW1.size a)
    (i23 : ∀ a, (![0, 768] : Fin 2 → Nat) a + R.size a ≤ SB1.size a)
    (i33 : ∀ a, (![768, 0] : Fin 2 → Nat) a + Q.size a ≤ SW2.size a)
    (i4 : ∀ a, (![0, 0] : Fin 2 → Nat) a + R.size a ≤ R.size a)
    (x0 : T.Idx → Elt Ideal .f32) (x1 : SW1.Idx → Elt Ideal .bf16) (x2 : SB1.Idx → Elt Ideal .f32)
    (x3 : SW2.Idx → Elt Ideal .bf16) (x4 : R.Idx → Elt Ideal .f32) (p : Fin 4096) (q : Fin 256) :
    total ht hq hr hb hlt (View.ld (Val := Elt Ideal) x0 (Rect.unit (s := T) ![0, 0] T.size i0))
        (View.ld (Val := Elt Ideal) x1 (Rect.unit (s := SW1) ![0, 0] Q.size i10))
        (View.ld (Val := Elt Ideal) x2 (Rect.unit (s := SB1) ![0, 0] R.size i20))
        (View.ld (Val := Elt Ideal) x3 (Rect.unit (s := SW2) ![0, 0] Q.size i30))
        (View.ld (Val := Elt Ideal) x1 (Rect.unit (s := SW1) ![0, 256] Q.size i11))
        (View.ld (Val := Elt Ideal) x2 (Rect.unit (s := SB1) ![0, 256] R.size i21))
        (View.ld (Val := Elt Ideal) x3 (Rect.unit (s := SW2) ![256, 0] Q.size i31))
        (View.ld (Val := Elt Ideal) x1 (Rect.unit (s := SW1) ![0, 512] Q.size i12))
        (View.ld (Val := Elt Ideal) x2 (Rect.unit (s := SB1) ![0, 512] R.size i22))
        (View.ld (Val := Elt Ideal) x3 (Rect.unit (s := SW2) ![512, 0] Q.size i32))
        (View.ld (Val := Elt Ideal) x1 (Rect.unit (s := SW1) ![0, 768] Q.size i13))
        (View.ld (Val := Elt Ideal) x2 (Rect.unit (s := SB1) ![0, 768] R.size i23))
        (View.ld (Val := Elt Ideal) x3 (Rect.unit (s := SW2) ![768, 0] Q.size i33))
        (View.ld (Val := Elt Ideal) x4 (Rect.unit (s := R) ![0, 0] R.size i4)) (ix2 p q)
      = rowChunked (fun j => x0 (ix2 p j)) (fun j h => x1 (ix2 j h)) (fun h => x2 (ix2 (0 : Fin 1) h))
          (fun h d => x3 (ix2 h d)) (fun d => x4 (ix2 (0 : Fin 1) d)) q := by
  unfold total
  rw [View.ld_unit_zero (S := T) hz i0 x0, View.ld_unit_zero (S := R) hz i4 x4]
  simp only [shapeCast_self]
  show ((((Ideal.ofBits .f32 0x00000000#32 + chunk hq hr hb hlt (truncf .bf16 x0 hlt) _ _ _ (ix2 p q))
      + chunk hq hr hb hlt (truncf .bf16 x0 hlt) _ _ _ (ix2 p q))
      + chunk hq hr hb hlt (truncf .bf16 x0 hlt) _ _ _ (ix2 p q))
      + chunk hq hr hb hlt (truncf .bf16 x0 hlt) _ _ _ (ix2 p q)) + broadcastTo T x4 hb (ix2 p q) = _
  rw [chunk_ld_apply 0 0 rfl, chunk_ld_apply 1 256 rfl, chunk_ld_apply 2 512 rfl, chunk_ld_apply 3 768 rfl,
    broadcastTo_1b_ab_apply]
  rfl

end Cert.Tile

end
-- ==== Proof.Payload.lean ====
/-
  What the tiled body leaves in its output tile, read at one entry.

  The body's one store writes the whole output tile; its value is the running total over the four chunks of the hidden
  layer plus the output bias row (`Tile.total` of the fourteen loads). So entry (p, q) of the tile after the body
  is `Mlp.rowChunked` of row p of the staged x tile and the staged weights and biases, at q.
-/
import proofs.«137107_j11295763988598_2_alg».proof.Proof.Gen.KernelIdeal.Frame
import proofs.«137107_j11295763988598_2_alg».proof.Proof.Tile

noncomputable section

namespace Cert.KernelIdeal.Body

open Cert.KernelIdeal Cert.KernelIdeal.Gen Idealize.ShloMosaic Idealize.ShloMosaic.ValueIdx

/-- The stored value, from the loaded pieces, is the tile's running total: the same operations in the same order. -/
theorem pay_eq (v0 : Vec Ideal S4096x256 .f32) (v4 : Vec Ideal S256x256 .bf16) (v6 : Vec Ideal S1x256 .f32)
    (v14 : Vec Ideal S256x256 .bf16) (v18 : Vec Ideal S256x256 .bf16) (v20 : Vec Ideal S1x256 .f32)
    (v28 : Vec Ideal S256x256 .bf16) (v32 : Vec Ideal S256x256 .bf16) (v34 : Vec Ideal S1x256 .f32)
    (v42 : Vec Ideal S256x256 .bf16) (v46 : Vec Ideal S256x256 .bf16) (v48 : Vec Ideal S1x256 .f32)
    (v56 : Vec Ideal S256x256 .bf16) (v60 : Vec Ideal S1x256 .f32) :
    k0_pay1 (F := Ideal) (k0_pay2 v0) (k0_pay3 v0 v4 v6 v14 v18 v20 v28) (k0_pay4 v32) v34 v42 v46 v48 v56 v60
      = Cert.Tile.total shapeCasts_S4096x256_S4096x256 shapeCasts_S256x256_S256x256 shapeCasts_S1x256_S1x256
          broadcasts_S1x256_S4096x256 bitsLt_bf16_f32 v0 v4 v6 v14 v18 v20 v28 v32 v34 v42 v46 v48 v56 v60 := rfl

/-- Entry (p, q) of the output tile after the body. -/
theorem out_apply (x0 : Vec Ideal S4096x256 .f32) (x1 : Vec Ideal S256x1024 .bf16) (x2 : Vec Ideal S1x1024 .f32)
    (x3 : Vec Ideal S1024x256 .bf16) (x4 : Vec Ideal S1x256 .f32) (p : Fin 4096) (q : Fin 256) :
    out0_5 (F := Ideal) x0 x1 x2 x3 x4 (ix2 p q)
      = Cert.Mlp.rowChunked (fun j => x0 (ix2 p j)) (fun j h => x1 (ix2 j h)) (fun h => x2 (ix2 (0 : Fin 1) h))
          (fun h d => x3 (ix2 h d)) (fun d => x4 (ix2 (0 : Fin 1) d)) q := by
  unfold out0_5
  rw [View.canon_unit_zero Cert.Tile.hz, pay_eq]
  exact Cert.Tile.tile_apply shapeCasts_S4096x256_S4096x256 shapeCasts_S256x256_S256x256 shapeCasts_S1x256_S1x256
    broadcasts_S1x256_S4096x256 bitsLt_bf16_f32
    inb_S4096x256_S4096x256_0_0 inb_S256x1024_S256x256_0_0 inb_S1x1024_S1x256_0_0 inb_S1024x256_S256x256_0_0
    inb_S256x1024_S256x256_0_256 inb_S1x1024_S1x256_0_256 inb_S1024x256_S256x256_256_0
    inb_S256x1024_S256x256_0_512 inb_S1x1024_S1x256_0_512 inb_S1024x256_S256x256_512_0
    inb_S256x1024_S256x256_0_768 inb_S1x1024_S1x256_0_768 inb_S1024x256_S256x256_768_0
    inb_S1x256_S1x256_0_0 x0 x1 x2 x3 x4 p q

end Cert.KernelIdeal.Body

end
-- ==== Proof.LibLayout3.lean ====
/-
  Layout operations on rank-3 arrays read at an index written by coordinates.

  Merging the two leading axes of an [a, b, c] array into one of extent a·b (and splitting it back) keeps entry
  (p, q, e) at row p·b + q; inserting a unit middle axis keeps (p, e) at (p, 0, e); broadcasting along that unit
  axis reads (p, 0, e) at every (p, q, e); a unit-stride slice along the last axis from offset o reads the source
  at last coordinate o + j.
-/
import Idealize.ShloMosaic.Lib.Pipeline.Value
import Idealize.ShloMosaic.Lib.ValueIdx

namespace Cert.LibLayout3

open Idealize.ShloMosaic Idealize.ShloMosaic.ValueIdx

variable {α : Type}

/-- An [a, b, c] array cast to an [m, c] matrix (m = a·b) reads, at row r = p·b + q, the array at (p, q, ·). -/
theorem shapeCast_abc_mc_apply {a b c m : ℕ} (x : (⟨3, ![a, b, c]⟩ : Shape).Idx → α)
    (h : (⟨3, ![a, b, c]⟩ : Shape).ShapeCasts ⟨2, ![m, c]⟩) (p : Fin a) (q : Fin b) (e : Fin c) (r : Fin m)
    (hr : r.val = p.val * b + q.val) :
    shapeCast ⟨2, ![m, c]⟩ x h (ix2 r e) = x (ix3 p q e) :=
  shapeCast_apply x h _ _ (by
    rw [Shape.rowMajor_val_three, Shape.rowMajor_val_two]
    show (p.val * b + q.val) * c + e.val = r.val * c + e.val
    rw [hr])

/-- An [m, c] matrix (m = a·b) cast to an [a, b, c] array reads, at (p, q, ·), the matrix at row r = p·b + q. -/
theorem shapeCast_mc_abc_apply {a b c m : ℕ} (x : (⟨2, ![m, c]⟩ : Shape).Idx → α)
    (h : (⟨2, ![m, c]⟩ : Shape).ShapeCasts ⟨3, ![a, b, c]⟩) (p : Fin a) (q : Fin b) (e : Fin c) (r : Fin m)
    (hr : r.val = p.val * b + q.val) :
    shapeCast ⟨3, ![a, b, c]⟩ x h (ix3 p q e) = x (ix2 r e) :=
  shapeCast_apply x h _ _ (by
    rw [Shape.rowMajor_val_two, Shape.rowMajor_val_three]
    show r.val * c + e.val = (p.val * b + q.val) * c + e.val
    rw [hr])

/-- An [a, c] matrix cast to [a, 1, c] reads, at (p, u, e), the matrix at (p, e). -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (e : Fin c) :
    shapeCast ⟨3, ![a, 1, c]⟩ x h (ix3 p u e) = x (ix2 p e) :=
  shapeCast_apply x h _ _ (by
    have hu : u.val = 0 := by omega
    rw [Shape.rowMajor_val_two, Shape.rowMajor_val_three]
    show p.val * c + e.val = (p.val * 1 + u.val) * c + e.val
    rw [hu, Nat.mul_one, Nat.add_zero])

/-- An [a, 1, c] array broadcast along its unit axis to [a, b, c] reads, at (p, q, e), the operand at (p, 0, e). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (e : Fin c) :
    broadcastTo ⟨3, ![a, b, c]⟩ v h (ix3 p q e) = v (ix3 p (0 : Fin 1) e) := by
  refine broadcastTo_apply v h (ix3 p q e) (ix3 p (0 : Fin 1) e) fun ax => ?_
  match ax with
  | ⟨0, _⟩ =>
    show p.val = if a = 1 then 0 else p.val
    split
    · have := p.isLt; omega
    · rfl
  | ⟨1, _⟩ => rfl
  | ⟨2, _⟩ =>
    show e.val = if c = 1 then 0 else e.val
    split
    · have := e.isLt; omega
    · rfl

/-- A rank-3 array cut along its last axis from o reads, at (a, b, j), the source at (a, b, k) with k = o + j. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

end Cert.LibLayout3
-- ==== Proof.LibLreluRows.lean ====
/-
  Single entries of a leaky rectifier and of a bias laid along the rows of a matrix, at exact (extended real) values.

  lrelu with slope 0.2 of one value (lr), and of a vector in the two spellings a tiled body and a host program give it
  (a comparison with a splat zero, a product with a splat 0.2 and a select — the constants scalars splat, or rank-0
  arrays broadcast), read at an index as lr of the entry, by computation. A bias vector of n entries laid along every
  row of an [m, n] matrix, read at entry (P, k) as entry k of the vector, in the two spellings: the vector broadcast
  along axis 1 of a one-row matrix and that row broadcast down the rows (biasRows_apply), and a one-row matrix, cast
  to its own shape, broadcast down the rows (rowDown_apply); a vector cast to a one-row matrix read at (0, k)
  (rowCast_apply).
-/
import Idealize.ShloMosaic.PureOps.Ideal.Laws
import Idealize.ShloMosaic.Lib.Pipeline.Value
import Idealize.ShloMosaic.Lib.ValueIdx
import Idealize.ShloMosaic.Lib.ValueLayout
import Idealize.ShloMosaic.Lib.KernelVsHost

noncomputable section

namespace Cert.LibLreluRows

open Idealize.ShloMosaic Idealize.ShloMosaic.ValueIdx

/-- lrelu on one value: v where v ≥ 0, and 0.2·v elsewhere (0.2 as its single-precision pattern). -/
def lr (v : EReal) : EReal :=
  Scalar.select (FloatOps.cmpf (F := Ideal) (φ := .f32) .oge v (Ideal.ofBits .f32 0x00000000#32)) v
    (Ideal.ofBits .f32 0x3E4CCCCD#32 * v)

/-- lrelu of a vector as a comparison with a splat zero, a product with a splat 0.2 and a select, at one index. -/
theorem lrelu_splat_apply {s : Shape} (v : FVec Ideal s .f32) (i : s.Idx) :
    select (cmpf .oge v (broadcast s (Scalar.ofBits (F := Ideal) .f32 0x00000000#32))) v
      (mulf (broadcast s (Scalar.ofBits (F := Ideal) .f32 0x3E4CCCCD#32)) v) i = lr (v i) := rfl

/-- The same with the two constants rank-0 arrays broadcast to the shape. -/
theorem lrelu_bcast_apply {s : Shape} (h : (⟨0, ![]⟩ : Shape).BroadcastsInDim s ![]) (v : FVec Ideal s .f32) (i : s.Idx) :
    select (cmpf .oge v (broadcastInDim s ![] h (constant (F := Ideal) ⟨0, ![]⟩ .f32 0x00000000#32))) v
      (mulf (broadcastInDim s ![] h (id (constant (F := Ideal) ⟨0, ![]⟩ .f32 0x3E4CCCCD#32))) v) i = lr (v i) := rfl

/-- lrelu of a vector: a comparison with a splat zero, a product with a splat 0.2 and a select. -/
def lrv {s : Shape} (v : FVec Ideal s .f32) : FVec Ideal s .f32 :=
  select (cmpf .oge v (broadcast s (Scalar.ofBits (F := Ideal) .f32 0x00000000#32))) v
    (mulf (broadcast s (Scalar.ofBits (F := Ideal) .f32 0x3E4CCCCD#32)) v)

theorem lrv_apply {s : Shape} (v : FVec Ideal s .f32) (i : s.Idx) : lrv v i = lr (v i) := rfl

/-- A vector of n entries read as a one-row matrix: entry (0, k) is entry k. -/
theorem rowCast_apply {α : Type} {n : Nat} (h : (⟨1, ![n]⟩ : Shape).ShapeCasts ⟨2, ![1, n]⟩)
    (b : (⟨1, ![n]⟩ : Shape).Idx → α) (k : Fin n) :
    shapeCast ⟨2, ![1, n]⟩ b h (ix2 (0 : Fin 1) k) = b (ix1 k) :=
  (shapeCast_addUnit_apply ![n] b h (ix2 (0 : Fin 1) k)).trans
    (congrArg b (funext fun a => match a with | ⟨0, _⟩ => rfl))

/-- A vector broadcast along axis 1 of a one-row matrix and that row broadcast down m rows: entry (P, k) is entry k. -/
theorem biasRows_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (P : Fin m) (k : Fin n) :
    broadcastInDim ⟨2, ![m, n]⟩ ![0, 1] h2 (broadcastInDim ⟨2, ![1, n]⟩ ![1] h1 b) (ix2 P k) = b (ix1 k) := by
  rw [broadcastInDim_oneRow_apply]
  refine broadcastInDim_apply ![1] h1 b (ix2 (0 : Fin 1) k) (ix1 k) ?_
  intro a
  match a with
  | ⟨0, _⟩ =>
    show k.val = if n = 1 then 0 else k.val
    split
    · have := k.isLt; omega
    · rfl

/-- A one-row matrix (cast to its own shape) broadcast down m rows: entry (p, k) is the row's entry (0, k). -/
theorem rowDown_apply {α : Type} {m n : Nat} (hs : (⟨2, ![1, n]⟩ : Shape).ShapeCasts ⟨2, ![1, n]⟩)
    (hb : (⟨2, ![1, n]⟩ : Shape).Broadcasts ⟨2, ![m, n]⟩) (x : (⟨2, ![1, n]⟩ : Shape).Idx → α) (p : Fin m) (k : Fin n) :
    broadcastTo ⟨2, ![m, n]⟩ (shapeCast ⟨2, ![1, n]⟩ x hs) hb (ix2 p k) = x (ix2 (0 : Fin 1) k) := by
  rw [broadcastTo_1b_ab_apply, shapeCast_self]

end Cert.LibLreluRows

end
-- ==== Proof.Entry.lean ====
/-
  The arrays the tiled region finds, in terms of the arguments.

  Before the region the host program converts the integer mask to floats, multiplies w1 by it and transposes the
  product (first-layer weights, input by hidden unit), transposes w2 and multiplies that by the mask (second-layer
  weights, hidden unit by output), lays b1 and b2 out as one-row matrices, and merges the two leading axes of x into
  131072 rows. Each prepared array is read here at an index: row r = 32768 * b + s of the merged x is x[b, s, ·];
  W1[j, h] = w1[h, j] * mask[h, j]; W2[h, d] = w2[d, h] * mask[h, d]; the bias rows hold b1 and b2. (The narrowing
  of the weights to a shorter float format is the identity on the extended reals.)
-/
import proofs.«137107_j11295763988598_2_alg».proof.Proof.Gen.KernelIdeal.Frame
import proofs.«137107_j11295763988598_2_alg».proof.Proof.LibLayout3
import proofs.«137107_j11295763988598_2_alg».proof.Proof.LibLreluRows
import proofs.«137107_j11295763988598_2_alg».proof.Proof.Mlp
import Idealize.ShloMosaic.Lib.StableHlo.Run

noncomputable section

namespace Cert.KernelIdeal.Entry

open Cert.KernelIdeal Cert.KernelIdeal.Gen Idealize.ShloMosaic Idealize.ShloMosaic.TcCoe
  Idealize.ShloMosaic.ValueIdx Idealize.SL.Sem Idealize.ShloMosaic.StableHlo

variable (m : (ℓ : Loc nD τ sig) → Buf (Elt Ideal) ℓ)

/-! ## The prepared arrays as whole-array terms -/

theorem V_x (c : Dev nD) : (V m c main_v9 : S131072x256.Idx → EReal)
    = shapeCast S131072x256 (m ((c : Thread nD τ).loc main_arg0)) shapeCasts_S4x32768x256_S131072x256 := by
  show StableHlo.after hostOps0 (fun b => m (c, b)) (Proc.devRef .tc main_v9) = _
  after_results <;> rfl

theorem V_w1 (c : Dev nD) : (V m c main_v3 : S256x1024.Idx → EReal)
    = truncf .bf16 (transpose S256x1024 [1, 0] (mulf (m ((c : Thread nD τ).loc main_arg1))
        (sitofp (F := Ideal) .f32 (m ((c : Thread nD τ).loc main_arg5)))) transposes_S1024x256_S256x1024_1_0) bitsLt_bf16_f32 := by
  show StableHlo.after hostOps0 (fun b => m (c, b)) (Proc.devRef .tc main_v3) = _
  after_results <;> rfl

theorem V_b1 (c : Dev nD) : (V m c main_v7 : S1x1024.Idx → EReal)
    = shapeCast S1x1024 (m ((c : Thread nD τ).loc main_arg2)) shapeCasts_S1024_S1x1024 := by
  show StableHlo.after hostOps0 (fun b => m (c, b)) (Proc.devRef .tc main_v7) = _
  after_results <;> rfl

theorem V_w2 (c : Dev nD) : (V m c main_v6 : S1024x256.Idx → EReal)
    = truncf .bf16 (mulf (transpose S1024x256 [1, 0] (m ((c : Thread nD τ).loc main_arg3)) transposes_S256x1024_S1024x256_1_0)
        (sitofp (F := Ideal) .f32 (m ((c : Thread nD τ).loc main_arg5)))) bitsLt_bf16_f32 := by
  show StableHlo.after hostOps0 (fun b => m (c, b)) (Proc.devRef .tc main_v6) = _
  after_results <;> rfl

theorem V_b2 (c : Dev nD) : (V m c main_v8 : S1x256.Idx → EReal)
    = shapeCast S1x256 (m ((c : Thread nD τ).loc main_arg4)) shapeCasts_S256_S1x256 := by
  show StableHlo.after hostOps0 (fun b => m (c, b)) (Proc.devRef .tc main_v8) = _
  after_results <;> rfl

/-! ## Read at an index -/

/-- Row r = 32768 * b + s of the merged x is x[b, s, ·]. -/
theorem x_apply (c : Dev nD) (b : Fin 4) (s : Fin 32768) (j : Fin 256) (r : Fin 131072) (hr : r.val = b.val * 32768 + s.val) :
    (V m c main_v9 : S131072x256.Idx → EReal) (ix2 r j) = m ((c : Thread nD τ).loc main_arg0) (ix3 b s j) := by
  rw [V_x]
  exact Cert.LibLayout3.shapeCast_abc_mc_apply _ _ b s j r hr

/-- W1[j, h] = w1[h, j] * mask[h, j]. -/
theorem w1_apply (c : Dev nD) (j : Fin 256) (h : Fin 1024) :
    (V m c main_v3 : S256x1024.Idx → EReal) (ix2 j h)
      = Cert.Mlp.w1m (m ((c : Thread nD τ).loc main_arg1)) (m ((c : Thread nD τ).loc main_arg5)) j h := by
  rw [V_w1]
  exact transpose_apply [1, 0] (mulf (m ((c : Thread nD τ).loc main_arg1)) (sitofp (F := Ideal) .f32 (m ((c : Thread nD τ).loc main_arg5))))
    transposes_S1024x256_S256x1024_1_0 (ix2 j h) (ix2 h j) (fun a => by match a with | ⟨0, _⟩ => rfl | ⟨1, _⟩ => rfl)

/-- The first-layer bias row holds b1. -/
theorem b1_apply (c : Dev nD) (h : Fin 1024) :
    (V m c main_v7 : S1x1024.Idx → EReal) (ix2 (0 : Fin 1) h) = m ((c : Thread nD τ).loc main_arg2) (ix1 h) := by
  rw [V_b1]
  exact Cert.LibLreluRows.rowCast_apply _ _ h

/-- W2[h, d] = w2[d, h] * mask[h, d]. -/
theorem w2_apply (c : Dev nD) (h : Fin 1024) (d : Fin 256) :
    (V m c main_v6 : S1024x256.Idx → EReal) (ix2 h d)
      = Cert.Mlp.w2m (m ((c : Thread nD τ).loc main_arg3)) (m ((c : Thread nD τ).loc main_arg5)) h d := by
  rw [V_w2]
  exact congrArg (· * FloatOps.sitofp (F := Ideal) .f32 (m ((c : Thread nD τ).loc main_arg5) (ix2 h d)))
    (transpose_apply [1, 0] (m ((c : Thread nD τ).loc main_arg3)) transposes_S256x1024_S1024x256_1_0 (ix2 h d) (ix2 d h)
      (fun a => by match a with | ⟨0, _⟩ => rfl | ⟨1, _⟩ => rfl))

/-- The output bias row holds b2. -/
theorem b2_apply (c : Dev nD) (d : Fin 256) :
    (V m c main_v8 : S1x256.Idx → EReal) (ix2 (0 : Fin 1) d) = m ((c : Thread nD τ).loc main_arg4) (ix1 d) := by
  rw [V_b2]
  exact Cert.LibLreluRows.rowCast_apply _ _ d

end Cert.KernelIdeal.Entry

end
-- ==== Proof.Blocks.lean ====
/-
  The tiled region's result array, from its blocks.

  The region runs the body at 32 points; point t stages rows 4096 t .. 4096 t + 4095 of the merged x, the whole of each
  prepared weight and bias array, and writes back rows 4096 t .. 4096 t + 4095 of the result. Since entry (p, q) of the
  tile the body leaves depends only on row p of the staged x tile and on the prepared arrays, what point t writes back is
  block t of ONE function of the arrays the region finds: row r, column q of the result is `Mlp.rowChunked` of row r
  of the merged x. The 32 blocks tile the 131072 rows, so the array after the region is that function; and by the
  chunk law and the reading of the prepared arrays, its row 32768 b + s is `Mlp.outAt` at (b, s, ·).
-/
import proofs.«137107_j11295763988598_2_alg».proof.Proof.Payload
import proofs.«137107_j11295763988598_2_alg».proof.Proof.Entry
import Idealize.ShloMosaic.Lib.Pipeline.Value

noncomputable section

namespace Cert.KernelIdeal.Blocks

open Cert.KernelIdeal Cert.KernelIdeal.Gen Idealize.ShloMosaic Idealize.ShloMosaic.TcCoe
  Idealize.ShloMosaic.ValueIdx Idealize.SL.Sem

/-- Row r, column q of the region's result from the arrays the region finds. -/
def rowAt (A0 : S131072x256.Idx → EReal) (A1 : S256x1024.Idx → EReal) (A2 : S1x1024.Idx → EReal)
    (A3 : S1024x256.Idx → EReal) (A4 : S1x256.Idx → EReal) (r : Fin 131072) (q : Fin 256) : EReal :=
  Cert.Mlp.rowChunked (fun j => A0 (ix2 r j)) (fun j h => A1 (ix2 j h)) (fun h => A2 (ix2 (0 : Fin 1) h))
    (fun h d => A3 (ix2 h d)) (fun d => A4 (ix2 (0 : Fin 1) d)) q

/-- The region's result array as one function of the arrays the region finds. -/
def whole (A0 : S131072x256.Idx → EReal) (A1 : S256x1024.Idx → EReal) (A2 : S1x1024.Idx → EReal)
    (A3 : S1024x256.Idx → EReal) (A4 : S1x256.Idx → EReal) : S131072x256.Idx → EReal :=
  fun i => rowAt A0 A1 A2 A3 A4 (i 0) (i 1)

variable (m : (ℓ : Loc nD τ sig) → Buf (Elt Ideal) ℓ)

/-- The printed index maps over the grid: the x tile and the result tile move down the rows with the point, the
    prepared arrays stay put. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is block t of `whole` of the arrays the region finds. -/
theorem flushed_eq (c : Dev nD) (t : Fin cfg0.N) :
    (dats m 0 c).flushed 5 t = ((cfg0.win 5).blk t).view.read (Elt Ideal)
      (whole (V m c main_v9) (V m c main_v3) (V m c main_v7) (V m c main_v6) (V m c main_v8)) := by
  show (cfg0.win 5).cut (grid0.coords t) ((dats m 0 c).after 5 t) = _
  rw [after0_5]
  obtain ⟨e00, e01, e10, e11, e20, e21, e30, e31, e40, e41, e50, e51⟩ := idx_facts t
  funext y
  obtain ⟨p, q, rfl⟩ : ∃ (p : Fin 4096) (q : Fin 256), y = ix2 p q := ⟨y 0, y 1, eq_ix2 y⟩
  refine (Cert.KernelIdeal.Body.out_apply (iblk m c 0 t) (iblk m c 1 t) (iblk m c 2 t) (iblk m c 3 t) (iblk m c 4 t) p q).trans ?_
  -- row p of the staged x tile is row 4096 t + p of the merged x
  have h0 : ∀ j : Fin 256, iblk m c 0 t (ix2 p j)
      = V m c main_v9 (ix2 ((((cfg0.win 5).blk t).view.emb (ix2 p q)) 0) j) := fun j => by
    show V m c main_v9 (((cfg0.win 0).blk t).view.emb (ix2 p j)) = _
    refine congrArg (V m c main_v9) (funext fun a => Fin.ext ?_)
    match a with
    | ⟨0, _⟩ => show win0_0.index t (0 : Fin 2) * 4096 + 1 * p.val = win0_5.index t (0 : Fin 2) * 4096 + 1 * p.val; omega
    | ⟨1, _⟩ => show win0_0.index t (1 : Fin 2) * 256 + 1 * j.val = j.val; omega
  -- the prepared arrays are staged whole
  have h1 : ∀ (j : Fin 256) (h : Fin 1024), iblk m c 1 t (ix2 j h) = V m c main_v3 (ix2 j h) := fun j h => by
    show V m c main_v3 (((cfg0.win 1).blk t).view.emb (ix2 j h)) = _
    refine congrArg (V m c main_v3) (funext fun a => Fin.ext ?_)
    match a with
    | ⟨0, _⟩ => show win0_1.index t (0 : Fin 2) * 256 + 1 * j.val = j.val; omega
    | ⟨1, _⟩ => show win0_1.index t (1 : Fin 2) * 1024 + 1 * h.val = h.val; omega
  have h2 : ∀ h : Fin 1024, iblk m c 2 t (ix2 (0 : Fin 1) h) = V m c main_v7 (ix2 (0 : Fin 1) h) := fun h => by
    show V m c main_v7 (((cfg0.win 2).blk t).view.emb (ix2 (0 : Fin 1) h)) = _
    refine congrArg (V m c main_v7) (funext fun a => Fin.ext ?_)
    match a with
    | ⟨0, _⟩ => show win0_2.index t (0 : Fin 2) * 1 + 1 * 0 = 0; omega
    | ⟨1, _⟩ => show win0_2.index t (1 : Fin 2) * 1024 + 1 * h.val = h.val; omega
  have h3 : ∀ (h : Fin 1024) (d : Fin 256), iblk m c 3 t (ix2 h d) = V m c main_v6 (ix2 h d) := fun h d => by
    show V m c main_v6 (((cfg0.win 3).blk t).view.emb (ix2 h d)) = _
    refine congrArg (V m c main_v6) (funext fun a => Fin.ext ?_)
    match a with
    | ⟨0, _⟩ => show win0_3.index t (0 : Fin 2) * 1024 + 1 * h.val = h.val; omega
    | ⟨1, _⟩ => show win0_3.index t (1 : Fin 2) * 256 + 1 * d.val = d.val; omega
  have h4 : ∀ d : Fin 256, iblk m c 4 t (ix2 (0 : Fin 1) d) = V m c main_v8 (ix2 (0 : Fin 1) d) := fun d => by
    show V m c main_v8 (((cfg0.win 4).blk t).view.emb (ix2 (0 : Fin 1) d)) = _
    refine congrArg (V m c main_v8) (funext fun a => Fin.ext ?_)
    match a with
    | ⟨0, _⟩ => show win0_4.index t (0 : Fin 2) * 1 + 1 * 0 = 0; omega
    | ⟨1, _⟩ => show win0_4.index t (1 : Fin 2) * 256 + 1 * d.val = d.val; omega
  have hq : (((cfg0.win 5).blk t).view.emb (ix2 p q)) 1 = q := Fin.ext (by
    show win0_5.index t (1 : Fin 2) * 256 + 1 * q.val = q.val; omega)
  show _ = rowAt (V m c main_v9) (V m c main_v3) (V m c main_v7) (V m c main_v6) (V m c main_v8)
    ((((cfg0.win 5).blk t).view.emb (ix2 p q)) 0) ((((cfg0.win 5).blk t).view.emb (ix2 p q)) 1)
  rw [hq]
  unfold rowAt
  simp only [h0, h1, h2, h3, h4]

/-- An index of the result array is in point t's block iff each coordinate is in the block's range on its axis. -/
theorem mem_blk (t : Fin cfg0.N) (i : S131072x256.Idx) :
    i ∈ ((cfg0.win 5).blk t).view.set ↔ ∀ a : Fin 2, win0_5.index t a * S4096x256.size a ≤ (i a).val
      ∧ (i a).val < win0_5.index t a * S4096x256.size a + S4096x256.size a := by
  show i ∈ ((View.whole main_v10).slice (win0_5.rect t)).set ↔ _
  rw [View.set_slice_whole, Rect.mem_set_unit]
  exact Iff.rfl

/-- Row r of the result is in the block of point r / 4096, which writes back. -/
theorem cover (i : S131072x256.Idx) :
    ∃ t : Fin cfg0.N, (cfg0.win 5).flush t = true ∧ i ∈ ((cfg0.win 5).blk t).view.set := by
  have hi0 : (i 0).val < 131072 := (i 0).isLt
  have hi1 : (i 1).val < 256 := (i 1).isLt
  have hN : (i 0).val / 4096 < cfg0.N := lt_of_lt_of_eq (by omega : (i 0).val / 4096 < 32) N_0.symm
  refine ⟨⟨(i 0).val / 4096, hN⟩, flush0_5 _, ?_⟩
  rw [mem_blk]
  obtain ⟨-, -, -, -, -, -, -, -, -, -, e50, e51⟩ := idx_facts ⟨(i 0).val / 4096, hN⟩
  have e50' : win0_5.index ⟨(i 0).val / 4096, hN⟩ (0 : Fin 2) = (i 0).val / 4096 := e50
  intro a
  match a with
  | ⟨0, _⟩ =>
    show win0_5.index ⟨(i 0).val / 4096, hN⟩ (0 : Fin 2) * 4096 ≤ (i 0).val
      ∧ (i 0).val < win0_5.index ⟨(i 0).val / 4096, hN⟩ (0 : Fin 2) * 4096 + 4096
    omega
  | ⟨1, _⟩ =>
    show win0_5.index ⟨(i 0).val / 4096, hN⟩ (1 : Fin 2) * 256 ≤ (i 1).val
      ∧ (i 1).val < win0_5.index ⟨(i 0).val / 4096, hN⟩ (1 : Fin 2) * 256 + 256
    omega

/-- The result array after the region is `whole` of the arrays the region finds. -/
theorem final (c : Dev nD) : (dats m 0 c).arrAt 5 cfg0.N
    = whole (V m c main_v9) (V m c main_v3) (V m c main_v7) (V m c main_v6) (V m c main_v8) :=
  (dats m 0 c).arrAt_eq_of_cover 5 _ (fun t _ => flushed_eq m c t) cover

/-- Row r = 32768 b + s of the region's result, in terms of the arguments, is the perceptron's result at (b, s, ·):
    the chunks regrouped into one sum, the prepared arrays read back to the arguments. -/
theorem whole_apply (c : Dev nD) (b : Fin 4) (s : Fin 32768) (d : Fin 256) (r : Fin 131072)
    (hr : r.val = b.val * 32768 + s.val) :
    whole (V m c main_v9) (V m c main_v3) (V m c main_v7) (V m c main_v6) (V m c main_v8) (ix2 r d)
      = Cert.Mlp.outAt (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) b s d := by
  show rowAt _ _ _ _ _ r d = _
  unfold rowAt Cert.Mlp.outAt
  rw [Cert.Mlp.rowChunked_eq_rowWhole]
  have h0 : (fun j : Fin 256 => (V m c main_v9 : S131072x256.Idx → EReal) (ix2 r j))
      = fun j => m ((c : Thread nD τ).loc main_arg0) (ix3 b s j) := funext fun j => Cert.KernelIdeal.Entry.x_apply m c b s j r hr
  have h1 : (fun (j : Fin 256) (h : Fin 1024) => (V m c main_v3 : S256x1024.Idx → EReal) (ix2 j h))
      = Cert.Mlp.w1m (m ((c : Thread nD τ).loc main_arg1)) (m ((c : Thread nD τ).loc main_arg5)) :=
    funext fun j => funext fun h => Cert.KernelIdeal.Entry.w1_apply m c j h
  have h2 : (fun h : Fin 1024 => (V m c main_v7 : S1x1024.Idx → EReal) (ix2 (0 : Fin 1) h))
      = fun h => m ((c : Thread nD τ).loc main_arg2) (ix1 h) := funext fun h => Cert.KernelIdeal.Entry.b1_apply m c h
  have h3 : (fun (h : Fin 1024) (d : Fin 256) => (V m c main_v6 : S1024x256.Idx → EReal) (ix2 h d))
      = Cert.Mlp.w2m (m ((c : Thread nD τ).loc main_arg3)) (m ((c : Thread nD τ).loc main_arg5)) :=
    funext fun h => funext fun d => Cert.KernelIdeal.Entry.w2_apply m c h d
  have h4 : (fun d : Fin 256 => (V m c main_v8 : S1x256.Idx → EReal) (ix2 (0 : Fin 1) d))
      = fun d => m ((c : Thread nD τ).loc main_arg4) (ix1 d) := funext fun d => Cert.KernelIdeal.Entry.b2_apply m c d
  rw [h0, h1, h2, h3, h4]

end Cert.KernelIdeal.Blocks

end
-- ==== Proof.Result.lean ====
/-
  The tiled program's run, with its result named.

  After the region the host splits the 131072 rows of the region's result back into [4, 32768]: entry (b, s, d) of the
  program's result is row 32768 b + s, column d of the region's result, which is the perceptron's result there. So
  every weakly fair execution ends with the result buffer at `Mlp.out` of the arguments and the arguments unchanged.
-/
import proofs.«137107_j11295763988598_2_alg».proof.Proof.Blocks
import Idealize.ShloMosaic.Lib.StableHlo.Run

noncomputable section

namespace Cert.KernelIdeal.Result

open Cert.KernelIdeal Cert.KernelIdeal.Gen Idealize.ShloMosaic Idealize.ShloMosaic.TcCoe
  Idealize.ShloMosaic.ValueIdx Idealize.SL.Sem Idealize.ShloMosaic.StableHlo

variable (m : (ℓ : Loc nD τ sig) → Buf (Elt Ideal) ℓ) (ρ : Dev nD → PrngReg)

/-- What the line after the region leaves in the result buffer: the perceptron's result array. -/
theorem tail_eq (c : Dev nD) :
    Pipeline.afterTail₀ cfgs (dats m) 0 (V0 m) [hostOps1] c main_v11
      = Cert.Mlp.out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  unfold Pipeline.afterTail₀
  show StableHlo.after hostOps1 _ (Proc.devRef .tc main_v11) = _
  after_results
  -- the region's result array, as the line after the region finds it
  have hw : Pipeline.withArrays (cfgs 0).spec c (V0 m c) (fun w => (dats m 0 c).arrAt w (cfgs 0).N) (Proc.devRef .tc main_v10)
      = Cert.KernelIdeal.Blocks.whole (V m c main_v9) (V m c main_v3) (V m c main_v7) (V m c main_v6) (V m c main_v8) :=
    (Pipeline.withArrays_arr spec0 launch0.win.arr_inj c _ _ 5).trans (Cert.KernelIdeal.Blocks.final m c)
  rw [hw]
  funext i
  obtain ⟨b, s, d, rfl⟩ : ∃ (b : Fin 4) (s : Fin 32768) (d : Fin 256), i = ix3 b s d := ⟨i 0, i 1, i 2, eq_ix3 i⟩
  rw [Cert.Mlp.out_apply]
  have hlt : b.val * 32768 + s.val < 131072 := by omega
  refine (Cert.LibLayout3.shapeCast_mc_abc_apply
    (Cert.KernelIdeal.Blocks.whole (V m c main_v9) (V m c main_v3) (V m c main_v7) (V m c main_v6) (V m c main_v8))
    shapeCasts_S131072x256_S4x32768x256 b s d ⟨b.val * 32768 + s.val, hlt⟩ rfl).trans ?_
  exact Cert.KernelIdeal.Blocks.whole_apply m c b s d ⟨b.val * 32768 + s.val, hlt⟩ rfl

/-- The run: the result buffer ends at `Mlp.out` of the arguments, and the arguments end as they began. -/
theorem run : θ_run defs (onTc (τ := τ) (main (F := Ideal))) ⟨m, fun _ => 0, ρ⟩ fun r => ∀ c : Dev nD,
      r.2.mem ((c : Thread nD τ).loc main_v11)
        = Cert.Mlp.out (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v11 (Pipeline.mem_restRefs_of main_v11 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Result

end
-- ==== Proof.RefValue.lean ====
/-
  The reference's result is the perceptron's result array.

  The reference masks w1 entry by entry, contracts x with it over the 256 inputs, adds the bias b1 along the last
  axis, rectifies against a zero, masks w2 with the transposed mask, contracts over the 1024 hidden units and adds
  b2 along the last axis. Read at index (b, s, d), stage by stage, this is `Mlp.outAt` there: the same sums in the
  same order, with the index maps of the two contractions, the two broadcasts and the transpose written out.
-/
import proofs.«137107_j11295763988598_2_alg».proof.Proof.Gen.ReferenceIdeal.Read
import proofs.«137107_j11295763988598_2_alg».proof.Proof.Mlp

noncomputable section

namespace Cert.ReferenceIdeal.RefValue

open Cert.ReferenceIdeal Cert.ReferenceIdeal.Read Idealize.ShloMosaic Idealize.ShloMosaic.ValueIdx

/-- The reference's last stage, as a function of the six arguments, is `Mlp.out`. -/
theorem ref_eq (x0 : (⟨S4x32768x256, .f32⟩ : BufTy).Contents (Elt Ideal)) (x1 : (⟨S1024x256, .f32⟩ : BufTy).Contents (Elt Ideal))
    (x2 : (⟨S1024, .f32⟩ : BufTy).Contents (Elt Ideal)) (x3 : (⟨S256x1024, .f32⟩ : BufTy).Contents (Elt Ideal))
    (x4 : (⟨S256, .f32⟩ : BufTy).Contents (Elt Ideal)) (x5 : (⟨S1024x256, .i32⟩ : BufTy).Contents (Elt Ideal)) :
    val_main_v12 (F := Ideal) x0 x1 x2 x3 x4 x5 = Cert.Mlp.out x0 x1 x2 x3 x4 x5 := by
  funext i
  obtain ⟨b, s, d, rfl⟩ : ∃ (b : Fin 4) (s : Fin 32768) (d : Fin 256), i = ix3 b s d := ⟨i 0, i 1, i 2, eq_ix3 i⟩
  rw [Cert.Mlp.out_apply]
  unfold Cert.Mlp.outAt Cert.Mlp.rowWhole Cert.Mlp.act Cert.Mlp.w1m Cert.Mlp.w2m
  -- the second contraction reads the activations at (b, s, h) and the masked w2 at (d, h)
  have e1 : ∀ h : Fin 1024, lidx_main_v9 (ix3 b s d) h = ix3 b s h := fun h => funext fun a => by
    match a with | ⟨0, _⟩ => rfl | ⟨1, _⟩ => rfl | ⟨2, _⟩ => rfl
  have e2 : ∀ h : Fin 1024, ridx_main_v9 (ix3 b s d) h = ix2 d h := fun h => funext fun a => by
    match a with | ⟨0, _⟩ => rfl | ⟨1, _⟩ => rfl
  -- the first contraction reads x at (b, s, j) and the masked w1 at (h, j)
  have e3 : ∀ (h : Fin 1024) (j : Fin 256), lidx_main_v2 (ix3 b s h) j = ix3 b s j := fun h j => funext fun a => by
    match a with | ⟨0, _⟩ => rfl | ⟨1, _⟩ => rfl | ⟨2, _⟩ => rfl
  have e4 : ∀ (h : Fin 1024) (j : Fin 256), ridx_main_v2 (ix3 b s h) j = ix2 h j := fun h j => funext fun a => by
    match a with | ⟨0, _⟩ => rfl | ⟨1, _⟩ => rfl
  -- the biases are spread along the leading axes
  have e5 : ∀ h : Fin 1024, idx_main_v3 (idx_main_v4 (ix3 b s h)) = ix1 h := fun h => funext fun a => by
    match a with | ⟨0, _⟩ => rfl
  have e6 : idx_main_v10 (idx_main_v11 (ix3 b s d)) = ix1 d := funext fun a => by
    match a with | ⟨0, _⟩ => rfl
  -- the mask is transposed for the second layer
  have e7 : ∀ h : Fin 1024, idx_main_v7 (ix2 d h) = ix2 h d := fun h => funext fun a => by
    match a with | ⟨0, _⟩ => rfl | ⟨1, _⟩ => rfl
  rw [val_main_v12_apply, val_main_v9_apply, val_main_v11_apply, val_main_v10_apply, e6]
  simp only [e1, e2, val_main_v6_apply, val_main_v5_apply, val_main_v2_apply, e3, e4, val_main_v4_apply, val_main_v3_apply,
    e5, val_main_call0_v0_apply, val_main_call0_cst_apply, val_main_v8_apply, val_main_v7_apply, e7, val_main_v1_apply,
    val_main_v0_apply, Ideal.addf_def, Ideal.mulf_def, Ideal.maximumf_def, Ideal.ofBits_def]

end Cert.ReferenceIdeal.RefValue

end
-- ==== Proof.lean ====
/-
  A masked two-layer perceptron, tiled over rows with the hidden layer taken in chunks, against its plain reference.

  Both programs compute, for x : [4, 32768, 256], w1 : [1024, 256], b1 : [1024], w2 : [256, 1024], b2 : [256] and an
  integer mask : [1024, 256],

      y[b, s, d] = (sum over h < 1024 of max(sum over j < 256 of x[b, s, j] * (w1[h, j] * mask[h, j]) + b1[h], 0)
                                           * (w2[d, h] * mask[h, d])) + b2[d].

  The reference does it with two contractions over whole arrays. The tiled program prepares the masked, transposed
  weights on the host, merges the two leading axes of x into 131072 rows, and runs a body over 32 tiles of 4096 rows;
  the body takes the 1024 hidden units in four chunks of 256, adding each chunk's contribution to a running total that
  starts at zero, and the host splits the rows back afterwards. On the extended reals a change of float format is the
  identity and a matrix product into a zero accumulator is the plain sum, so the only difference between the two is the
  grouping of one finite sum over the hidden units, and addition of extended reals is associative and commutative with
  no finiteness asked: the two results are equal entry by entry (Mlp.rowChunked_eq_rowWhole). The precondition is
  never opened.

  The modules: Mlp (the entry-wise specification and the chunk law), Tile and Payload (what the body leaves in its
  output tile), Entry (the prepared arrays read back to the arguments), Blocks (the region's result from its 32
  blocks), Result (the tiled program's run with its result named), RefValue (the reference's result is the
  specification). The frames of the two tiled programs are the generated ones; the reference's frame is its generated
  run with the result dropped. The idealized program is the program's own text read at the extended reals (no rewrite
  was applied), so there is nothing to preserve.
-/
import proofs.«137107_j11295763988598_2_alg».proof.Defs
import proofs.«137107_j11295763988598_2_alg».proof.Proof.Gen.Kernel
import proofs.«137107_j11295763988598_2_alg».proof.Proof.Gen.Kernel.Skeleton
import proofs.«137107_j11295763988598_2_alg».proof.Proof.Gen.Kernel.Launch
import proofs.«137107_j11295763988598_2_alg».proof.Proof.Gen.Kernel.Points
import proofs.«137107_j11295763988598_2_alg».proof.Proof.Gen.Kernel.Frame
import proofs.«137107_j11295763988598_2_alg».proof.Proof.Gen.KernelIdeal
import proofs.«137107_j11295763988598_2_alg».proof.Proof.Gen.KernelIdeal.Skeleton
import proofs.«137107_j11295763988598_2_alg».proof.Proof.Gen.KernelIdeal.Launch
import proofs.«137107_j11295763988598_2_alg».proof.Proof.Gen.KernelIdeal.Points
import proofs.«137107_j11295763988598_2_alg».proof.Proof.Gen.KernelIdeal.Frame
import proofs.«137107_j11295763988598_2_alg».proof.Proof.Gen.ReferenceIdeal
import proofs.«137107_j11295763988598_2_alg».proof.Proof.Gen.ReferenceIdeal.Run
import proofs.«137107_j11295763988598_2_alg».proof.Proof.Gen.ReferenceIdeal.Read
import proofs.«137107_j11295763988598_2_alg».proof.Proof.Gen.Pre_finite_inputs
import proofs.«137107_j11295763988598_2_alg».proof.Proof.Result
import proofs.«137107_j11295763988598_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten when the program was read at the extended reals. -/
theorem preserves : Cert.preserves_Kernel_KernelIdeal := trivial

/-- Both programs end with the perceptron's result array of arguments that agree. -/
theorem algebraic : Cert.algebraic_KernelIdeal_ReferenceIdeal := by
  intro m ρ m' ρ' _ hagree
  refine ⟨fun c => Cert.Mlp.out (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.ref_eq, (hagree c).1, (hagree c).2.1,
    (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
